-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S256x512 : Shape := ⟨2, ![256, 512]⟩
abbrev S_ : Shape := ⟨0, ![]⟩
abbrev S1024x512x1 : Shape := ⟨3, ![1024, 512, 1]⟩
abbrev S512x256 : Shape := ⟨2, ![512, 256]⟩
abbrev S1x512x256 : Shape := ⟨3, ![1, 512, 256]⟩
abbrev S1024x512x256 : Shape := ⟨3, ![1024, 512, 256]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S1024x512_S1024x512x1_0_1 : S1024x512.BroadcastsInDim S1024x512x1 (![0, 1] : Fin 2 → Fin S1024x512x1.rank)
  transposes_S256x512_S512x256_1_0 : S256x512.Transposes [1, 0] S512x256
  bcast_S512x256_S1x512x256_1_2 : S512x256.BroadcastsInDim S1x512x256 (![1, 2] : Fin 2 → Fin S1x512x256.rank)
  bcast_S1024x512x1_S1024x512x256_0_1_2 : S1024x512x1.BroadcastsInDim S1024x512x256 (![0, 1, 2] : Fin 3 → Fin S1024x512x256.rank)
  bcast_S1x512x256_S1024x512x256_0_1_2 : S1x512x256.BroadcastsInDim S1024x512x256 (![0, 1, 2] : Fin 3 → Fin S1024x512x256.rank)
  bcast_S_S1024x512x256 : S_.BroadcastsInDim S1024x512x256 (![] : Fin 0 → Fin S1024x512x256.rank)
  reducesTo_S1024x512x256_S_d0_1_2 : S1024x512x256.ReducesTo [0, 1, 2] S_

variable [Facts]

def fn_part2 {F : FTy → Type} [FloatOps F] (main_v27 : IVec S_ 1) (main_v35 : FVec F S1024x512x256 .f32) (main_cst_9 : FVec F S_ .f32) : IVec S_ 1 :=
  let main_v36 : FVec F S1024x512x256 .f32 := broadcastInDim S1024x512x256 ![] bcast_S_S1024x512x256 main_cst_9
  let main_v37 : IVec S1024x512x256 1 := cmpf .oge main_v35 main_v36
  let main_c_10 : IVec S_ 1 := constantI S_ 1 1#1
  let main_v38 : IVec S_ 1 := (fun x v => Host.reduce IntOp.andi x v reducesTo_S1024x512x256_S_d0_1_2 h_S_) main_v37 main_c_10
  let main_v39 : IVec S_ 1 := andi main_v27 main_v38
  main_v39

def fn_part1 {F : FTy → Type} [FloatOps F] (main_arg0 : FVec F S1024x512 .f32) (main_arg1 : FVec F S256x512 .f32) (main_arg2 : FVec F S256x512 .f32) (main_v13 : IVec S_ 1) (main_v16 : FVec F S1024x512x1 .f32) : IVec S_ 1 :=
  let main_v17 : FVec F S512x256 .f32 := (transpose S512x256 [1, 0] · transposes_S256x512_S512x256_1_0) main_arg1
  let main_v18 : FVec F S1x512x256 .f32 := broadcastInDim S1x512x256 ![1, 2] bcast_S512x256_S1x512x256_1_2 main_v17
  let main_v19 : FVec F S1024x512x256 .f32 := broadcastInDim S1024x512x256 ![0, 1, 2] bcast_S1024x512x1_S1024x512x256_0_1_2 main_v16
  let main_v20 : FVec F S1024x512x256 .f32 := broadcastInDim S1024x512x256 ![0, 1, 2] bcast_S1x512x256_S1024x512x256_0_1_2 main_v18
  let main_v21 : FVec F S1024x512x256 .f32 := mulf main_v19 main_v20
  let main_cst_5 : FVec F S_ .f32 := constant S_ .f32 0x3F800000#32
  let main_v22 : FVec F S1024x512x256 .f32 := broadcastInDim S1024x512x256 ![] bcast_S_S1024x512x256 main_cst_5
  let main_v23 : FVec F S1024x512x256 .f32 := subf main_v22 main_v21
  let main_cst_6 : FVec F S_ .f32 := constant S_ .f32 0x00000000#32
  let main_v24 : FVec F S1024x512x256 .f32 := broadcastInDim S1024x512x256 ![] bcast_S_S1024x512x256 main_cst_6
  let main_v25 : IVec S1024x512x256 1 := cmpf .oge main_v23 main_v24
  let main_c_7 : IVec S_ 1 := constantI S_ 1 1#1
  let main_v26 : IVec S_ 1 := (fun x v => Host.reduce IntOp.andi x v reducesTo_S1024x512x256_S_d0_1_2 h_S_) main_v25 main_c_7
  let main_v27 : IVec S_ 1 := andi main_v13 main_v26
  let main_v28 : FVec F S1024x512x1 .f32 := broadcastInDim S1024x512x1 ![0, 1] bcast_S1024x512_S1024x512x1_0_1 main_arg0
  let main_v29 : FVec F S512x256 .f32 := (transpose S512x256 [1, 0] · transposes_S256x512_S512x256_1_0) main_arg2
  let main_v30 : FVec F S1x512x256 .f32 := broadcastInDim S1x512x256 ![1, 2] bcast_S512x256_S1x512x256_1_2 main_v29
  let main_v31 : FVec F S1024x512x256 .f32 := broadcastInDim S1024x512x256 ![0, 1, 2] bcast_S1024x512x1_S1024x512x256_0_1_2 main_v28
  let main_v32 : FVec F S1024x512x256 .f32 := broadcastInDim S1024x512x256 ![0, 1, 2] bcast_S1x512x256_S1024x512x256_0_1_2 main_v30
  let main_v33 : FVec F S1024x512x256 .f32 := mulf main_v31 main_v32
  let main_cst_8 : FVec F S_ .f32 := constant S_ .f32 0x3F800000#32
  let main_v34 : FVec F S1024x512x256 .f32 := broadcastInDim S1024x512x256 ![] bcast_S_S1024x512x256 main_cst_8
  let main_v35 : FVec F S1024x512x256 .f32 := subf main_v34 main_v33
  let main_cst_9 : FVec F S_ .f32 := constant S_ .f32 0x00000000#32
  fn_part2 (F := F) main_v27 main_v35 main_cst_9

def fn {F : FTy → Type} [FloatOps F] (main_arg0 : FVec F S1024x512 .f32) (main_arg1 : FVec F S256x512 .f32) (main_arg2 : FVec F S256x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_cst_4 : FVec F S_ .f32 := constant S_ .f32 0x3F800000#32
  let main_v14 : FVec F S1024x512 .f32 := broadcastInDim S1024x512 ![] bcast_S_S1024x512 main_cst_4
  let main_v15 : FVec F S1024x512 .f32 := subf main_v14 main_arg0
  let main_v16 : FVec F S1024x512x1 .f32 := broadcastInDim S1024x512x1 ![0, 1] bcast_S1024x512_S1024x512x1_0_1 main_v15
  fn_part1 (F := F) main_arg0 main_arg1 main_arg2 main_v13 main_v16
-- ==== Kernel.lean ====
abbrev S1024x512 : Shape := ⟨2, ![1024, 512]⟩
abbrev S256x512 : Shape := ⟨2, ![256, 512]⟩
abbrev S32x512 : Shape := ⟨2, ![32, 512]⟩
abbrev S32x128 : Shape := ⟨2, ![32, 128]⟩
abbrev S32x1x128 : Shape := ⟨3, ![32, 1, 128]⟩
abbrev S256x128 : Shape := ⟨2, ![256, 128]⟩
abbrev S1x256x128 : Shape := ⟨3, ![1, 256, 128]⟩
abbrev S32x256x128 : Shape := ⟨3, ![32, 256, 128]⟩
abbrev S32x256 : Shape := ⟨2, ![32, 256]⟩

abbrev nBuf : Space → Nat
  | .hbm => 4
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S256x512, .f32⟩
  | .hbm, ⟨2, _⟩ => ⟨S256x512, .f32⟩
  | .hbm, ⟨3, _⟩ => ⟨S1024x512, .f32⟩
  | .local _ .vmem, ⟨0, _⟩ => ⟨S32x512, .f32⟩
  | .local _ .vmem, ⟨1, _⟩ => ⟨S32x512, .f32⟩
  | .local _ .vmem, ⟨2, _⟩ => ⟨S256x512, .f32⟩
  | .local _ .vmem, ⟨3, _⟩ => ⟨S256x512, .f32⟩
  | .local _ .vmem, ⟨4, _⟩ => ⟨S32x512, .f32⟩
  | .local _ .vmem, ⟨5, _⟩ => ⟨S32x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S32x512_S32x512_0_0 : ∀ a, (![0, 0] : Fin 2 → Nat) a + S32x512.size a ≤ S32x512.size a
  h_S32x512 : 0 < S32x512.numel
  inb_S256x512_S256x512_0_0 : ∀ a, (![0, 0] : Fin 2 → Nat) a + S256x512.size a ≤ S256x512.size a
  h_S256x512 : 0 < S256x512.numel
  slices_S32x512_o0_0_S32x128 : S32x512.Slices ![0, 0] S32x128
  shapeCasts_S32x128_S32x1x128 : S32x128.ShapeCasts S32x1x128
  slices_S256x512_o0_0_S256x128 : S256x512.Slices ![0, 0] S256x128
  shapeCasts_S256x128_S1x256x128 : S256x128.ShapeCasts S1x256x128
  broadcasts_S32x1x128_S32x256x128 : S32x1x128.Broadcasts S32x256x128
  broadcasts_S1x256x128_S32x256x128 : S1x256x128.Broadcasts S32x256x128
  slices_S32x512_o0_128_S32x128 : S32x512.Slices ![0, 128] S32x128
  slices_S256x512_o0_128_S256x128 : S256x512.Slices ![0, 128] S256x128
  slices_S32x512_o0_256_S32x128 : S32x512.Slices ![0, 256] S32x128
  slices_S256x512_o0_256_S256x128 : S256x512.Slices ![0, 256] S256x128
  slices_S32x512_o0_384_S32x128 : S32x512.Slices ![0, 384] S32x128
  slices_S256x512_o0_384_S256x128 : S256x512.Slices ![0, 384] S256x128
  reduces_S32x256x128_S32x256 : S32x256x128.Reduces [2] S32x256
  inb_S32x512_S32x256_0_0 : ∀ a, (![0, 0] : Fin 2 → Nat) a + S32x256.size a ≤ S32x512.size a
  h_S32x256 : 0 < S32x256.numel
  inb_S32x512_S32x256_0_256 : ∀ a, (![0, 256] : Fin 2 → Nat) a + S32x256.size a ≤ S32x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S1024x512.size a
  hwx0_0 : ∀ i : grid0.Coords, EltTy.bits .f32 = 32 ∨ (Rect.block (s := S1024x512) S32x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S1024x512.size a
  hwx0_3 : ∀ i : grid0.Coords, EltTy.bits .f32 = 32 ∨ (Rect.block (s := S1024x512) S32x512.size (cc0_transform_3 i) (hinb0_3 i)).WholeWords (EltTy.packing .f32)

variable [Facts₀]

abbrev win0_0 : Pipeline.Window sig grid0 :=
  Pipeline.Window.ofSpec (Memref.whole main_arg0) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x512 : Shape := ⟨2, ![1024, 512]⟩
abbrev S256x512 : Shape := ⟨2, ![256, 512]⟩
abbrev S_ : Shape := ⟨0, ![]⟩
abbrev S1024x512x1 : Shape := ⟨3, ![1024, 512, 1]⟩
abbrev S512x256 : Shape := ⟨2, ![512, 256]⟩
abbrev S1x512x256 : Shape := ⟨3, ![1, 512, 256]⟩
abbrev S1024x512x256 : Shape := ⟨3, ![1024, 512, 256]⟩
abbrev S1024x256 : Shape := ⟨2, ![1024, 256]⟩

abbrev nBuf : Space → Nat
  | .hbm => 46
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S256x512, .f32⟩
  | .hbm, ⟨2, _⟩ => ⟨S256x512, .f32⟩
  | .hbm, ⟨3, _⟩ => ⟨S_, .f32⟩
  | .hbm, ⟨4, _⟩ => ⟨S1024x512, .f32⟩
  | .hbm, ⟨5, _⟩ => ⟨S1024x512, .f32⟩
  | .hbm, ⟨6, _⟩ => ⟨S1024x512x1, .f32⟩
  | .hbm, ⟨7, _⟩ => ⟨S512x256, .f32⟩
  | .hbm, ⟨8, _⟩ => ⟨S1x512x256, .f32⟩
  | .hbm, ⟨9, _⟩ => ⟨S1024x512x256, .f32⟩
  | .hbm, ⟨10, _⟩ => ⟨S1024x512x256, .f32⟩
  | .hbm, ⟨11, _⟩ => ⟨S1024x512x256, .f32⟩
  | .hbm, ⟨12, _⟩ => ⟨S_, .f32⟩
  | .hbm, ⟨13, _⟩ => ⟨S1024x512x256, .f32⟩
  | .hbm, ⟨14, _⟩ => ⟨S1024x512x256, .f32⟩
  | .hbm, ⟨15, _⟩ => ⟨S1024x512x256, .f32⟩
  | .hbm, ⟨16, _⟩ => ⟨S_, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S_, .f32⟩
  | .hbm, ⟨22, _⟩ => ⟨S1024x256, .f32⟩
  | .hbm, ⟨23, _⟩ => ⟨S1024x256, .f32⟩
  | .hbm, ⟨24, _⟩ => ⟨S1024x512x1, .f32⟩
  | .hbm, ⟨25, _⟩ => ⟨S512x256, .f32⟩
  | .hbm, ⟨26, _⟩ => ⟨S1x512x256, .f32⟩
  | .hbm, ⟨27, _⟩ => ⟨S1024x512x256, .f32⟩
  | .hbm, ⟨28, _⟩ => ⟨S1024x512x256, .f32⟩
  | .hbm, ⟨29, _⟩ => ⟨S1024x512x256, .f32⟩
  | .hbm, ⟨30, _⟩ => ⟨S_, .f32⟩
  | .hbm, ⟨31, _⟩ => ⟨S1024x512x256, .f32⟩
  | .hbm, ⟨32, _⟩ => ⟨S1024x512x256, .f32⟩
  | .hbm, ⟨33, _⟩ => ⟨S1024x512x256, .f32⟩
  | .hbm, ⟨34, _⟩ => ⟨S_, .f32⟩
  | .hbm, ⟨35, _⟩ => ⟨S1024x256, .f32⟩
  | .hbm, ⟨36, _⟩ => ⟨S_, .f32⟩
  | .hbm, ⟨37, _⟩ => ⟨S1024x256, .f32⟩
  | .hbm, ⟨38, _⟩ => ⟨S1024x256, .f32⟩
  | .hbm, ⟨39, _⟩ => ⟨S_, .f32⟩
  | .hbm, ⟨40, _⟩ => ⟨S1024x256, .f32⟩
  | .hbm, ⟨41, _⟩ => ⟨S1024x256, .f32⟩
  | .hbm, ⟨42, _⟩ => ⟨S_, .f32⟩
  | .hbm, ⟨43, _⟩ => ⟨S1024x256, .f32⟩
  | .hbm, ⟨44, _⟩ => ⟨S1024x256, .f32⟩
  | .hbm, ⟨45, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S_S1024x512 : S_.BroadcastsInDim S1024x512 (![] : Fin 0 → Fin S1024x512.rank)
  bcast_S1024x512_S1024x512x1_0_1 : S1024x512.BroadcastsInDim S1024x512x1 (![0, 1] : Fin 2 → Fin S1024x512x1.rank)
  transposes_S256x512_S512x256_1_0 : S256x512.Transposes [1, 0] S512x256
  bcast_S512x256_S1x512x256_1_2 : S512x256.BroadcastsInDim S1x512x256 (![1, 2] : Fin 2 → Fin S1x512x256.rank)
  bcast_S1024x512x1_S1024x512x256_0_1_2 : S1024x512x1.BroadcastsInDim S1024x512x256 (![0, 1, 2] : Fin 3 → Fin S1024x512x256.rank)
  bcast_S1x512x256_S1024x512x256_0_1_2 : S1x512x256.BroadcastsInDim S1024x512x256 (![0, 1, 2] : Fin 3 → Fin S1024x512x256.rank)
  bcast_S_S1024x512x256 : S_.BroadcastsInDim S1024x512x256 (![] : Fin 0 → Fin S1024x512x256.rank)
  reducesTo_S1024x512x256_S1024x256_d1 : S1024x512x256.ReducesTo [1] S1024x256
  h_S_ : 0 < S_.numel
  bcast_S_S1024x256 : S_.BroadcastsInDim S1024x256 (![] : Fin 0 → Fin S1024x256.rank)
  concatenates_S1024x256_S1024x256_S1024x512_d1 : Shape.Concatenates [S1024x256, S1024x256] S1024x512 1

variable [Facts₀]

class Facts : Prop extends Facts₀ where

variable [Facts]
-- ==== Proof.LibIsReal.lean ====
/-
  Extended reals that are reals.

  The exact instance computes on the extended reals; under a precondition that every input is finite, every
  intermediate value of a program made of sums, products, differences, maxima and divisions by non-zero reals is a real.
  This file has the closure facts, and the two laws that need them: a quotient by the square root of a positive real is
  the product with its reciprocal square root, and the exact instance's division of reals is the real division.
-/
import Idealize.ShloMosaic.PureOps.Ideal

noncomputable section

namespace Cert.LibIsReal

open Idealize.ShloMosaic

/-- `x` is (the image of) a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max {x y : EReal} (hx : IsReal x) (hy : IsReal y) : IsReal (max x y) := by
  rcases max_choice x y with h | h <;> rw [h] <;> assumption

theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The exact division of reals with a non-zero divisor is the real division. -/
theorem div_coe_coe (a : ℝ) {b : ℝ} (hb : b ≠ 0) : Ideal.div (a : EReal) (b : EReal) = ((a / b : ℝ) : EReal) := by
  rw [Ideal.div_coe hb, ← EReal.coe_mul]; congr 1; field_simp

theorem IsReal.div_coe {x : EReal} (hx : IsReal x) {b : ℝ} (hb : b ≠ 0) : IsReal (Ideal.div x (b : EReal)) := by
  obtain ⟨a, rfl⟩ := hx; exact ⟨a / b, div_coe_coe a hb⟩

/-- A quotient by the square root of a positive real is the product with the reciprocal square root. -/
theorem div_sqrt_eq_mul_rsqrt (a : EReal) {v : ℝ} (hv : 0 < v) :
    Ideal.div a (Ideal.sqrt (v : EReal)) = a * Ideal.rsqrt (v : EReal) := by
  have hs : 0 < Real.sqrt v := Real.sqrt_pos.mpr hv
  have e1 : Ideal.sqrt (v : EReal) = ((Real.sqrt v : ℝ) : EReal) := by
    show (if v < 0 then (⊥ : EReal) else (Real.sqrt v : EReal)) = _
    rw [if_neg (not_lt.mpr hv.le)]
  have e2 : Ideal.rsqrt (v : EReal) = (((Real.sqrt v)⁻¹ : ℝ) : EReal) := by
    show (if v < 0 then (⊥ : EReal) else if v = 0 then ⊤ else (((Real.sqrt v)⁻¹ : ℝ) : EReal)) = _
    rw [if_neg (not_lt.mpr hv.le), if_neg hv.ne']
  rw [e1, e2, Ideal.div_coe hs.ne', one_div]

end Cert.LibIsReal

end
-- ==== Proof.LibFiniteEntries.lean ====
/-
  Finite entries are real entries.

  A precondition "every entry of this array is finite" is, as a program, a reduction by `and` over all axes of the
  elementwise test `max x (−x) < w`, with `w` the word of `+∞` broadcast from a scalar; several such tests are joined by
  `and`s of one-bit words.  On the extended reals this reads back as: when the result is one, every element test is one,
  and an extended real whose magnitude is below `⊤` is neither `⊤` nor `⊥` (`max ⊤ _ = ⊤`, `max ⊥ (−⊥) = ⊤`), so it is
  a real.  The statements are for any shape, any axes and any evidence of the reduction to a shape of one index.
-/
import proofs.«115098_j36301063585948_2_alg».proof.Proof.LibIsReal
import Idealize.ShloMosaic.Lib.ReduceAll
import Idealize.ShloMosaic.Lib.ValueIdx
import Idealize.ShloMosaic.Lib.IdealHost

noncomputable section

namespace Cert.LibFiniteEntries

open Idealize.ShloMosaic Idealize.ShloMosaic.ValueIdx Cert.LibIsReal

/-- The shape of a scalar has exactly one index. -/
instance subsingleton_scalarIdx : Subsingleton (⟨0, ![]⟩ : Shape).Idx := ⟨fun a b => funext fun d => d.elim0⟩

/-- A conjunction of one-bit arrays is one at an index exactly when both arrays are one there. -/
theorem andi_apply_eq_one {s : Shape} (x y : IVec s 1) (i : s.Idx) : andi x y i = 1#1 ↔ x i = 1#1 ∧ y i = 1#1 :=
  IntOp.andi_eq_one

/-- An extended real whose magnitude `max x (−x)` compares below `⊤` is a real: the magnitude of `⊤` and of `⊥` is `⊤`. -/
theorem isReal_of_mag_lt_top (x : EReal) (h : Ideal.cmp .olt (max x (-x)) ⊤ = 1#1) : IsReal x := by
  have hlt : max x (-x) < ⊤ := by
    by_contra hn
    simp [Ideal.cmp, hn] at h
  induction x using EReal.rec with
  | bot => simp at hlt
  | coe r => exact ⟨r, rfl⟩
  | top => simp at hlt

/-- The single-precision word `0x7F800000` is `+∞`. -/
theorem ofBits_f32_inf : Ideal.ofBits .f32 0x7F800000#32 = (⊤ : EReal) := by simp [Ideal.ofBits, Ideal.ieee]

/-- An extended real whose magnitude compares below the single-precision word of `+∞` is a real. -/
theorem isReal_of_mag_lt_inf (x : EReal)
    (h : Ideal.cmp .olt (max x (-x)) (Ideal.ofBits .f32 0x7F800000#32) = 1#1) : IsReal x :=
  isReal_of_mag_lt_top x (ofBits_f32_inf ▸ h)

/-- If the reduction by `and`, over all axes, of the elementwise tests `|a i| < w` is one, `w` a word of `+∞` in the
    array's format broadcast from a scalar, then every entry of `a` is a real. -/
theorem real_of_all_lt_word {S T u : Shape} [Subsingleton T.Idx] {φ : FTy} {axes : List (Fin S.rank)} (a : FVec Ideal S φ)
    (w : BitVec φ.bits) (hw : Ideal.ofBits φ w = (⊤ : EReal))
    (hb : (⟨0, ![]⟩ : Shape).BroadcastsInDim S (![] : Fin 0 → Fin S.rank)) (hr : S.ReducesTo axes T) (hu : 0 < u.numel)
    (init : IVec u 1) (j : T.Idx)
    (e : Host.reduce IntOp.andi
          (cmpf .olt (Host.absf a) (broadcastInDim S ![] hb (constant (F := Ideal) ⟨0, ![]⟩ φ w))) init hr hu j = 1#1)
    (i : S.Idx) : IsReal (a i) := by
  have hi := Host.reduce_andi_all _ init hr hu j e i
  rw [cmpf_apply, broadcastInDim_scalar_apply] at hi
  refine isReal_of_mag_lt_top (a i) ?_
  rw [← hw]; exact hi

/-- The single-precision case: if the reduction by `and`, over all axes, of the tests `|a i| < +∞` is one, every entry of
    `a` is a real. -/
theorem real_of_all_lt_inf {S T u : Shape} [Subsingleton T.Idx] {axes : List (Fin S.rank)} (a : FVec Ideal S .f32)
    (hb : (⟨0, ![]⟩ : Shape).BroadcastsInDim S (![] : Fin 0 → Fin S.rank)) (hr : S.ReducesTo axes T) (hu : 0 < u.numel)
    (init : IVec u 1) (j : T.Idx)
    (e : Host.reduce IntOp.andi
          (cmpf .olt (Host.absf a) (broadcastInDim S ![] hb (constant (F := Ideal) ⟨0, ![]⟩ .f32 0x7F800000#32)))
          init hr hu j = 1#1)
    (i : S.Idx) : IsReal (a i) :=
  real_of_all_lt_word a _ ofBits_f32_inf hb hr hu init j e i

end Cert.LibFiniteEntries

end
-- ==== Proof.LogDomain.lean ====
/-
  The domain of the logarithms.

  The precondition is, as a program, the conjunction of five reductions by `and` over all axes: three tests "every entry
  of the array has magnitude below +∞", and two tests "every entry of the rank-3 array `1 − u ⊗ w` is at least zero",
  the rank-3 array having at `(b, d, n)` the entry `1 − u (b, d) · w (n, d)`, with `u = 1 − x` for the first test and
  `u = x` for the second.  On the extended reals the result being one reads back as: every entry of the three inputs
  is a real, and every one of those differences is at least zero.
-/
import proofs.«115098_j36301063585948_2_alg».proof.Proof.Gen.Pre_finite_inputs
import proofs.«115098_j36301063585948_2_alg».proof.Proof.LibFiniteEntries
import Idealize.ShloMosaic.Lib.ReduceAll
import Idealize.ShloMosaic.Lib.ValueIdx
import Idealize.ShloMosaic.Lib.Pipeline.Value
import Idealize.ShloMosaic.PureOps.Ideal.Laws

noncomputable section

namespace Cert.LogDomain

open Idealize.ShloMosaic Idealize.ShloMosaic.ValueIdx Cert.LibIsReal Cert.LibFiniteEntries
open Cert.Pre_finite_inputs Cert.Pre_finite_inputs.Facts

variable [Cert.Pre_finite_inputs.Facts]

/-- An array indexed by `(b, d)`, given a unit third axis and then repeated along it, has at `(b, d, n)` its entry at
    `(b, d)`. -/
theorem row_apply {α : Type} (y : S1024x512.Idx → α) (b : Fin 1024) (d : Fin 512) (n : Fin 256) :
    broadcastInDim S1024x512x256 ![0, 1, 2] bcast_S1024x512x1_S1024x512x256_0_1_2
      (broadcastInDim S1024x512x1 ![0, 1] bcast_S1024x512_S1024x512x1_0_1 y) (ix3 b d n) = y (ix2 b d) :=
  (broadcastInDim_apply _ bcast_S1024x512x1_S1024x512x256_0_1_2 _ (ix3 b d n) (ix3 b d (0 : Fin 1)) (fun a => match a with
    | ⟨0, _⟩ => by show b.val = if (1024 : Nat) = 1 then 0 else b.val; rw [if_neg (by decide)]
    | ⟨1, _⟩ => by show d.val = if (512 : Nat) = 1 then 0 else d.val; rw [if_neg (by decide)]
    | ⟨2, _⟩ => by show 0 = if (1 : Nat) = 1 then 0 else n.val; rw [if_pos rfl])).trans
  (broadcastInDim_apply _ bcast_S1024x512_S1024x512x1_0_1 y (ix3 b d (0 : Fin 1)) (ix2 b d) (fun a => match a with
    | ⟨0, _⟩ => by show b.val = if (1024 : Nat) = 1 then 0 else b.val; rw [if_neg (by decide)]
    | ⟨1, _⟩ => by show d.val = if (512 : Nat) = 1 then 0 else d.val; rw [if_neg (by decide)]))

/-- An array indexed by `(n, d)`, transposed, given a unit leading axis and then repeated along it, has at `(b, d, n)`
    its entry at `(n, d)`. -/
theorem col_apply {α : Type} (w : S256x512.Idx → α) (b : Fin 1024) (d : Fin 512) (n : Fin 256) :
    broadcastInDim S1024x512x256 ![0, 1, 2] bcast_S1x512x256_S1024x512x256_0_1_2
      (broadcastInDim S1x512x256 ![1, 2] bcast_S512x256_S1x512x256_1_2
        (transpose S512x256 [1, 0] w transposes_S256x512_S512x256_1_0)) (ix3 b d n) = w (ix2 n d) :=
  ((broadcastInDim_apply _ bcast_S1x512x256_S1024x512x256_0_1_2 _ (ix3 b d n) (ix3 (0 : Fin 1) d n) (fun a => match a with
    | ⟨0, _⟩ => by show 0 = if (1 : Nat) = 1 then 0 else b.val; rw [if_pos rfl]
    | ⟨1, _⟩ => by show d.val = if (512 : Nat) = 1 then 0 else d.val; rw [if_neg (by decide)]
    | ⟨2, _⟩ => by show n.val = if (256 : Nat) = 1 then 0 else n.val; rw [if_neg (by decide)])).trans
  (broadcastInDim_apply _ bcast_S512x256_S1x512x256_1_2 _ (ix3 (0 : Fin 1) d n) (ix2 d n) (fun a => match a with
    | ⟨0, _⟩ => by show d.val = if (512 : Nat) = 1 then 0 else d.val; rw [if_neg (by decide)]
    | ⟨1, _⟩ => by show n.val = if (256 : Nat) = 1 then 0 else n.val; rw [if_neg (by decide)]))).trans
  (transpose_apply [1, 0] w transposes_S256x512_S512x256_1_0 (ix2 d n) (ix2 n d) (fun c => match c with
    | ⟨0, _⟩ => rfl
    | ⟨1, _⟩ => rfl))

/-- On the extended reals the comparison "at least" being one is the order relation. -/
theorem le_of_cmp_oge (a c : EReal) (h : Ideal.cmp .oge a c = 1#1) : c ≤ a := by
  by_contra hn
  simp [Ideal.cmp, hn] at h

/-- One entry of the test `1 − u ⊗ w ≥ 0`: if the reduction by `and` over all axes of the test is one, then at every
    `(b, d, n)` the difference `1 − u (b, d) · w (n, d)` is at least zero. -/
theorem nonneg_of_all_ge (u : FVec Ideal S1024x512 .f32) (w : FVec Ideal S256x512 .f32) (init : IVec S_ 1) (j : S_.Idx)
    (e : Host.reduce IntOp.andi
          (cmpf .oge
            (subf (broadcastInDim S1024x512x256 ![] bcast_S_S1024x512x256 (constant (F := Ideal) S_ .f32 0x3F800000#32))
              (mulf
                (broadcastInDim S1024x512x256 ![0, 1, 2] bcast_S1024x512x1_S1024x512x256_0_1_2
                  (broadcastInDim S1024x512x1 ![0, 1] bcast_S1024x512_S1024x512x1_0_1 u))
                (broadcastInDim S1024x512x256 ![0, 1, 2] bcast_S1x512x256_S1024x512x256_0_1_2
                  (broadcastInDim S1x512x256 ![1, 2] bcast_S512x256_S1x512x256_1_2
                    (transpose S512x256 [1, 0] w transposes_S256x512_S512x256_1_0)))))
            (broadcastInDim S1024x512x256 ![] bcast_S_S1024x512x256 (constant (F := Ideal) S_ .f32 0x00000000#32)))
          init reducesTo_S1024x512x256_S_d0_1_2 h_S_ j = 1#1)
    (b : Fin 1024) (d : Fin 512) (n : Fin 256) :
    0 ≤ Ideal.ofBits .f32 0x3F800000#32 - u (ix2 b d) * w (ix2 n d) := by
  have hi := Host.reduce_andi_all _ init reducesTo_S1024x512x256_S_d0_1_2 h_S_ j e (ix3 b d n)
  rw [cmpf_apply, subf_apply, mulf_apply, row_apply, col_apply, broadcastInDim_scalar_apply,
    broadcastInDim_scalar_apply, constant_apply, constant_apply, Ideal.cmpf_def, Ideal.ofBits_zero_f32] at hi
  exact le_of_cmp_oge _ _ hi

/-- The precondition read back: the three inputs have real entries, and both families of differences, the arguments of
    the logarithms, are at least zero. -/
theorem of_pre (x : FVec Ideal Cert.Pre_finite_inputs.S1024x512 .f32) (wc wd : FVec Ideal Cert.Pre_finite_inputs.S256x512 .f32)
    (h : Cert.Pre_finite_inputs.fn (F := Ideal) x wc wd = fun _ => 1#1) :
    (∀ i, IsReal (x i)) ∧ (∀ i, IsReal (wc i)) ∧ (∀ i, IsReal (wd i))
    ∧ (∀ (b : Fin 1024) (d : Fin 512) (n : Fin 256),
          0 ≤ Ideal.ofBits .f32 0x3F800000#32 - (Ideal.ofBits .f32 0x3F800000#32 - x (ix2 b d)) * wc (ix2 n d))
    ∧ (∀ (b : Fin 1024) (d : Fin 512) (n : Fin 256),
          0 ≤ Ideal.ofBits .f32 0x3F800000#32 - x (ix2 b d) * wd (ix2 n d)) := by
  have h0 := congrFun h ix0
  dsimp only [Cert.Pre_finite_inputs.fn, Cert.Pre_finite_inputs.fn_part1, Cert.Pre_finite_inputs.fn_part2] at h0
  obtain ⟨h1234, h5⟩ := (andi_apply_eq_one _ _ _).1 h0
  obtain ⟨h123, h4⟩ := (andi_apply_eq_one _ _ _).1 h1234
  obtain ⟨h12, h3⟩ := (andi_apply_eq_one _ _ _).1 h123
  obtain ⟨h1, h2⟩ := (andi_apply_eq_one _ _ _).1 h12
  refine ⟨fun i => real_of_all_lt_inf x _ _ _ _ _ h1 i, fun i => real_of_all_lt_inf wc _ _ _ _ _ h2 i,
    fun i => real_of_all_lt_inf wd _ _ _ _ _ h3 i, fun b d n => ?_, fun b d n => ?_⟩
  · have e := nonneg_of_all_ge _ wc _ _ h4 b d n
    rwa [subf_apply, broadcastInDim_scalar_apply, constant_apply] at e
  · exact nonneg_of_all_ge x wd _ _ h5 b d n

end Cert.LogDomain

end
-- ==== Proof.LibBlockedSum.lean ====
/-
  A sum over a long axis taken block by block.

  A kernel that walks a reduction axis of length `nb * bs` in `nb` blocks of `bs` consecutive positions, adding each
  block's partial sum into an accumulator, computes the same number as one sum over the whole axis: position `k` of the
  long axis is position `l` of block `kb` exactly when `k = kb * bs + l`.  The statement holds in any commutative
  additive monoid — in particular for extended reals, where no finiteness is needed — and is phrased for a summand
  given on the natural numbers, so that it applies whatever index types the two sides use.
-/
import Mathlib.Algebra.BigOperators.Fin
import Mathlib.Logic.Equiv.Fin.Basic

namespace Cert.LibBlockedSum

/-- Summing `f` over block `kb` and position `l` inside the block, at the flat position `kb * bs + l`, is summing `f`
    over the flat positions `0 … nb * bs - 1`. -/
theorem sum_blocks {M : Type} [AddCommMonoid M] (nb bs : ℕ) (f : ℕ → M) :
    (∑ kb : Fin nb, ∑ l : Fin bs, f (kb.val * bs + l.val)) = ∑ k : Fin (nb * bs), f k.val := by
  rw [← (finProdFinEquiv : Fin nb × Fin bs ≃ Fin (nb * bs)).sum_comp (fun k => f k.val), Fintype.sum_prod_type]
  refine Finset.sum_congr rfl fun a _ => Finset.sum_congr rfl fun b _ => ?_
  refine congrArg f ?_
  simp only [finProdFinEquiv_apply_val]
  rw [Nat.mul_comm, Nat.add_comm]

/-- The accumulator form: starting from `z` and adding the blocks' partial sums one after the other (a left fold over
    the blocks in order) ends at `z` plus the whole sum. -/
theorem foldl_blocks {M : Type} [AddCommMonoid M] (nb bs : ℕ) (f : ℕ → M) (z : M) :
    ((List.finRange nb).foldl (fun acc kb => acc + ∑ l : Fin bs, f (kb.val * bs + l.val)) z)
      = z + ∑ k : Fin (nb * bs), f k.val := by
  rw [← sum_blocks nb bs f]
  have h : ∀ (L : List (Fin nb)) (z : M),
      L.foldl (fun acc kb => acc + ∑ l : Fin bs, f (kb.val * bs + l.val)) z
        = z + (L.map fun kb => ∑ l : Fin bs, f (kb.val * bs + l.val)).sum := by
    intro L
    induction L with
    | nil => intro z; simp
    | cons a L ih => intro z; rw [List.foldl_cons, ih, List.map_cons, List.sum_cons, add_assoc]
  rw [h, ← List.ofFn_eq_map, List.sum_ofFn]

end Cert.LibBlockedSum
-- ==== Proof.LogOfProducts.lean ====
/-
  The logarithm of a product of factors that are not negative.

  On the extended reals the logarithm of a positive real is its real logarithm, the logarithm of zero is `⊥`, and
  `⊥ + y = ⊥` for every `y`.  So for reals `a, b ≥ 0` the logarithm of the product is the sum of the logarithms: if one
  factor is zero both sides are `⊥`, and otherwise it is the real law `log (a b) = log a + log b`.  (For negative factors
  the law fails: two factors `-1` have product `1`.)  Consequently a sum over a long axis of `4 · 128` positions of the
  logarithms of such factors may be taken as a sum over `128` lanes of the logarithm of the product of the four factors
  that sit in the same lane of the four consecutive chunks: position `d = c · 128 + j` is lane `j` of chunk `c`.
-/
import proofs.«115098_j36301063585948_2_alg».proof.Proof.LibIsReal
import proofs.«115098_j36301063585948_2_alg».proof.Proof.LibBlockedSum
import Idealize.ShloMosaic.PureOps.Ideal

noncomputable section

namespace Cert.LogOfProducts

open Idealize.ShloMosaic Cert.LibIsReal

/-- For reals that are not negative, the logarithm of the product is the sum of the logarithms, zero factors included. -/
theorem log_mul_of_nonneg {a b : ℝ} (ha : 0 ≤ a) (hb : 0 ≤ b) :
    Ideal.log ((a : EReal) * (b : EReal)) = Ideal.log (a : EReal) + Ideal.log (b : EReal) := by
  have hz : Ideal.log ((0 : ℝ) : EReal) = ⊥ := by
    show (if (0 : ℝ) ≤ 0 then (⊥ : EReal) else ((Real.log 0 : ℝ) : EReal)) = ⊥
    rw [if_pos le_rfl]
  rw [← EReal.coe_mul]
  rcases ha.eq_or_lt with rfl | ha'
  · rw [zero_mul, hz, EReal.bot_add]
  rcases hb.eq_or_lt with rfl | hb'
  · rw [mul_zero, hz, EReal.add_bot]
  simp only [Ideal.log_coe]
  rw [if_neg (not_le.mpr (mul_pos ha' hb')), if_neg (not_le.mpr ha'), if_neg (not_le.mpr hb'),
    Real.log_mul ha'.ne' hb'.ne', EReal.coe_add]

/-- The same for four factors, multiplied from the left as a running product. -/
theorem log_mul4_of_nonneg {a b c d : ℝ} (ha : 0 ≤ a) (hb : 0 ≤ b) (hc : 0 ≤ c) (hd : 0 ≤ d) :
    Ideal.log ((a : EReal) * (b : EReal) * (c : EReal) * (d : EReal))
      = Ideal.log (a : EReal) + Ideal.log (b : EReal) + Ideal.log (c : EReal) + Ideal.log (d : EReal) := by
  rw [← EReal.coe_mul a b, ← EReal.coe_mul (a * b) c, log_mul_of_nonneg (mul_nonneg (mul_nonneg ha hb) hc) hd,
    EReal.coe_mul (a * b) c, log_mul_of_nonneg (mul_nonneg ha hb) hc, EReal.coe_mul a b, log_mul_of_nonneg ha hb]

/-- Position `c · 128 + j` of an axis of length `512`: lane `j` of chunk `c`. -/
def chunkAt (c : Fin 4) (j : Fin 128) : Fin 512 := ⟨c.val * 128 + j.val, by have := c.isLt; have := j.isLt; omega⟩

@[simp] theorem chunkAt_val (c : Fin 4) (j : Fin 128) : (chunkAt c j).val = c.val * 128 + j.val := rfl

/-- A sum over the 512 positions of the logarithms of real factors that are not negative is the sum over the 128 lanes
    of the logarithm of the product of the lane's four factors, one from each chunk. -/
theorem sum_log_chunks (g : Fin 512 → EReal) (hr : ∀ d, IsReal (g d)) (h0 : ∀ d, 0 ≤ g d) :
    (∑ j : Fin 128, Ideal.log (g (chunkAt 0 j) * g (chunkAt 1 j) * g (chunkAt 2 j) * g (chunkAt 3 j)))
      = ∑ d : Fin 512, Ideal.log (g d) := by
  have e := Cert.LibBlockedSum.sum_blocks 4 128 (fun d => if h : d < 512 then Ideal.log (g ⟨d, h⟩) else 0)
  have e' : (∑ d : Fin 512, Ideal.log (g d))
      = ∑ k : Fin (4 * 128), (fun d => if h : d < 512 then Ideal.log (g ⟨d, h⟩) else 0) k.val :=
    Finset.sum_congr rfl fun k _ => by
      show _ = dite (k.val < 512) (fun h => Ideal.log (g ⟨k.val, h⟩)) (fun _ => 0)
      rw [dif_pos k.isLt]
  rw [e', ← e, Finset.sum_comm]
  refine Finset.sum_congr rfl fun j _ => ?_
  rw [Fin.sum_univ_four]
  have hlt : ∀ c : Fin 4, c.val * 128 + j.val < 512 := fun c => (chunkAt c j).isLt
  simp only [dif_pos (hlt _)]
  obtain ⟨a0, e0⟩ := hr (chunkAt 0 j); obtain ⟨a1, e1⟩ := hr (chunkAt 1 j)
  obtain ⟨a2, e2⟩ := hr (chunkAt 2 j); obtain ⟨a3, e3⟩ := hr (chunkAt 3 j)
  have p0 := h0 (chunkAt 0 j); have p1 := h0 (chunkAt 1 j); have p2 := h0 (chunkAt 2 j); have p3 := h0 (chunkAt 3 j)
  rw [e0] at p0; rw [e1] at p1; rw [e2] at p2; rw [e3] at p3
  rw [e0, e1, e2, e3, log_mul4_of_nonneg (EReal.coe_nonneg.mp p0) (EReal.coe_nonneg.mp p1) (EReal.coe_nonneg.mp p2)
    (EReal.coe_nonneg.mp p3)]
  show _ = Ideal.log (g (chunkAt 0 j)) + Ideal.log (g (chunkAt 1 j)) + Ideal.log (g (chunkAt 2 j)) + Ideal.log (g (chunkAt 3 j))
  rw [e0, e1, e2, e3]

end Cert.LogOfProducts

end
-- ==== Proof.LogicScores.lean ====
/-
  The two score matrices, as functions of the argument arrays.

  For a batch row `x` (512 features) and weight rows `w_n` (256 of them, 512 features each), with the sum of logarithms
      S(a, w) = Σ_d log (1 − a_d · w_d),
  the conjunction score of `(x, n)` is `−1 / (−1 + S(1 − x, wc_n))` and the disjunction score is
  `1 − (−1 / (−1 + S(x, wd_n)))`; the result row is the 256 conjunction scores followed by the 256 disjunction scores.
  The sum of logarithms can also be taken lane by lane over four chunks of 128 features, as the logarithm of the product
  of a lane's four factors; when every factor is a real that is not negative the two sums are equal.
-/
import proofs.«115098_j36301063585948_2_alg».proof.Proof.LogOfProducts
import Idealize.ShloMosaic.Lib.ValueIdx
import Idealize.ShloMosaic.Lib.IdealHost

noncomputable section

namespace Cert.LogicScores

open Idealize.ShloMosaic Idealize.ShloMosaic.ValueIdx Cert.LibIsReal Cert.LogOfProducts

/-- The single-precision word of the number one. -/
abbrev one : EReal := Ideal.ofBits .f32 0x3F800000#32
/-- The single-precision word of the number minus one. -/
abbrev negOne : EReal := Ideal.ofBits .f32 0xBF800000#32

theorem isReal_one : IsReal one := ⟨1, by show Ideal.ofBits .f32 0x3F800000#32 = _; rw [Ideal.ofBits_one_f32]; rfl⟩

/-- The sum over the 512 features of the logarithms of the factors `1 − a_d · w_d`. -/
def logSum (a w : Fin 512 → EReal) : EReal := ∑ d : Fin 512, Ideal.log (one - a d * w d)

/-- The same sum taken lane by lane: over the 128 lanes, the logarithm of the product of the lane's four factors. -/
def laneSum (a w : Fin 512 → EReal) : EReal :=
  ∑ j : Fin 128, Ideal.log ((one - a (chunkAt 0 j) * w (chunkAt 0 j)) * (one - a (chunkAt 1 j) * w (chunkAt 1 j))
    * (one - a (chunkAt 2 j) * w (chunkAt 2 j)) * (one - a (chunkAt 3 j) * w (chunkAt 3 j)))

/-- Where every factor is a real that is not negative, the lane-by-lane sum is the plain sum. -/
theorem laneSum_eq_logSum (a w : Fin 512 → EReal) (hr : ∀ d, IsReal (one - a d * w d)) (h0 : ∀ d, 0 ≤ one - a d * w d) :
    laneSum a w = logSum a w :=
  sum_log_chunks (fun d => one - a d * w d) hr h0

/-- `−1 / (−1 + s)`. -/
def andScore (s : EReal) : EReal := Ideal.div negOne (negOne + s)
/-- `1 − (−1 / (−1 + s))`. -/
def orScore (s : EReal) : EReal := one - Ideal.div negOne (negOne + s)

/-- A result column, `k` or `256 + k`, belongs to weight row `k`. -/
def lowCol (k : Fin 512) : Fin 256 := ⟨k.val % 256, Nat.mod_lt _ (by decide)⟩

/-- One result row from one batch row, for either way `S` of taking the sum of logarithms: columns below 256 hold the
    conjunction scores, the others the disjunction scores. -/
def rowScores (S : (Fin 512 → EReal) → (Fin 512 → EReal) → EReal) (xr : Fin 512 → EReal)
    (Wc Wd : (⟨2, ![256, 512]⟩ : Shape).Idx → EReal) (k : Fin 512) : EReal :=
  if k.val < 256 then andScore (S (fun d => one - xr d) (fun d => Wc (ix2 (lowCol k) d)))
  else orScore (S xr (fun d => Wd (ix2 (lowCol k) d)))

/-- The result matrix for `R` batch rows. -/
def scoresBy (S : (Fin 512 → EReal) → (Fin 512 → EReal) → EReal) {R : ℕ} (X : (⟨2, ![R, 512]⟩ : Shape).Idx → EReal)
    (Wc Wd : (⟨2, ![256, 512]⟩ : Shape).Idx → EReal) : (⟨2, ![R, 512]⟩ : Shape).Idx → EReal :=
  fun i => rowScores S (fun d => X (ix2 (i 0) d)) Wc Wd (i 1)

/-- Where all entries are reals and every factor under a logarithm is not negative, the result matrix taken lane by
    lane is the result matrix taken with the plain sums. -/
theorem laneScores_eq_scores {R : ℕ} (X : (⟨2, ![R, 512]⟩ : Shape).Idx → EReal)
    (Wc Wd : (⟨2, ![256, 512]⟩ : Shape).Idx → EReal)
    (hx : ∀ i, IsReal (X i)) (hc : ∀ i, IsReal (Wc i)) (hd : ∀ i, IsReal (Wd i))
    (pc : ∀ (b : Fin R) (d : Fin 512) (n : Fin 256), 0 ≤ one - (one - X (ix2 b d)) * Wc (ix2 n d))
    (pd : ∀ (b : Fin R) (d : Fin 512) (n : Fin 256), 0 ≤ one - X (ix2 b d) * Wd (ix2 n d)) :
    scoresBy laneSum X Wc Wd = scoresBy logSum X Wc Wd := by
  funext i
  unfold scoresBy rowScores
  by_cases hk : (i 1).val < 256
  · rw [if_pos hk, if_pos hk]
    exact congrArg andScore (laneSum_eq_logSum _ _
      (fun d => isReal_one.sub ((isReal_one.sub (hx _)).mul (hc _))) (fun d => pc (i 0) d (lowCol (i 1))))
  · rw [if_neg hk, if_neg hk]
    exact congrArg orScore (laneSum_eq_logSum _ _
      (fun d => isReal_one.sub ((hx _).mul (hd _))) (fun d => pd (i 0) d (lowCol (i 1))))

end Cert.LogicScores

end
-- ==== Proof.LibLaneChunks.lean ====
/-
  Two matrices spread over a common rank-3 shape, lane chunk by lane chunk.

  To form all products `a(p, k) · w(n, k)` of a row `p` of an `R × D` matrix with a row `n` of an `N × D` matrix, for the
  positions `k` of one chunk of `C` consecutive lanes starting at `o`, a program cuts the chunk out of each matrix, views
  the first as `[R, 1, C]` and the second as `[1, N, C]`, and spreads both to `[R, N, C]`.  Read at `(p, n, j)` the
  first is `a(p, o + j)` and the second is `w(n, o + j)`.  Also: a sum over the last axis of an `[R, N, C]` array,
  read at `(p, n)`, is the sum over `j` of the entries `(p, n, j)`.  All for any extents and any element type.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibLaneChunks

open Idealize.ShloMosaic Idealize.ShloMosaic.ValueIdx

variable {α : Type}

/-- The chunk of columns `[o, o + C)` of an `R × D` matrix, viewed as `[R, 1, C]` and spread to `[R, N, C]`, read at
    `(p, n, j)`: the matrix at `(p, k)` with `k = o + j`. -/
theorem rows_spread_apply {R D C N : ℕ} (o : ℕ) (a : (⟨2, ![R, D]⟩ : Shape).Idx → α)
    (h1 : (⟨2, ![R, D]⟩ : Shape).Slices ![0, o] ⟨2, ![R, C]⟩)
    (h2 : (⟨2, ![R, C]⟩ : Shape).ShapeCasts ⟨3, ![R, 1, C]⟩)
    (h3 : (⟨3, ![R, 1, C]⟩ : Shape).Broadcasts ⟨3, ![R, N, C]⟩)
    (p : Fin R) (n : Fin N) (j : Fin C) (k : Fin D) (hk : k.val = o + j.val) :
    broadcastTo ⟨3, ![R, N, C]⟩ (shapeCast ⟨3, ![R, 1, C]⟩ (extractStridedSlice ⟨2, ![R, C]⟩ ![0, o] a h1) h2) h3 (ix3 p n j)
      = a (ix2 p k) := by
  refine (broadcastTo_apply _ h3 (ix3 p n j) (ix3 p (0 : Fin 1) j) (fun ax => ?_)).trans ?_
  · match ax with
    | ⟨0, _⟩ =>
      show p.val = if R = 1 then 0 else p.val
      split_ifs with h
      · have := p.isLt; omega
      · rfl
    | ⟨1, _⟩ => show 0 = if (1 : ℕ) = 1 then 0 else n.val; rw [if_pos rfl]
    | ⟨2, _⟩ =>
      show j.val = if C = 1 then 0 else j.val
      split_ifs with h
      · have := j.isLt; omega
      · rfl
  refine (shapeCast_apply _ h2 (ix3 p (0 : Fin 1) j) (ix2 p j) ?_).trans ?_
  · rw [Shape.rowMajor_val_three, Shape.rowMajor_val_two]
    show p.val * C + j.val = (p.val * 1 + 0) * C + j.val
    rw [Nat.mul_one, Nat.add_zero]
  exact slice2_axis1_apply o a h1 p j k hk

/-- The chunk of columns `[o, o + C)` of an `N × D` matrix, viewed as `[1, N, C]` and spread to `[R, N, C]`, read at
    `(p, n, j)`: the matrix at `(n, k)` with `k = o + j`. -/
theorem cols_spread_apply {R D C N : ℕ} (o : ℕ) (w : (⟨2, ![N, D]⟩ : Shape).Idx → α)
    (h1 : (⟨2, ![N, D]⟩ : Shape).Slices ![0, o] ⟨2, ![N, C]⟩)
    (h2 : (⟨2, ![N, C]⟩ : Shape).ShapeCasts ⟨3, ![1, N, C]⟩)
    (h3 : (⟨3, ![1, N, C]⟩ : Shape).Broadcasts ⟨3, ![R, N, C]⟩)
    (p : Fin R) (n : Fin N) (j : Fin C) (k : Fin D) (hk : k.val = o + j.val) :
    broadcastTo ⟨3, ![R, N, C]⟩ (shapeCast ⟨3, ![1, N, C]⟩ (extractStridedSlice ⟨2, ![N, C]⟩ ![0, o] w h1) h2) h3 (ix3 p n j)
      = w (ix2 n k) := by
  refine (broadcastTo_apply _ h3 (ix3 p n j) (ix3 (0 : Fin 1) n j) (fun ax => ?_)).trans ?_
  · match ax with
    | ⟨0, _⟩ => show 0 = if (1 : ℕ) = 1 then 0 else p.val; rw [if_pos rfl]
    | ⟨1, _⟩ =>
      show n.val = if N = 1 then 0 else n.val
      split_ifs with h
      · have := n.isLt; omega
      · rfl
    | ⟨2, _⟩ =>
      show j.val = if C = 1 then 0 else j.val
      split_ifs with h
      · have := j.isLt; omega
      · rfl
  refine (shapeCast_ab_1ab_apply _ h2 (0 : Fin 1) n j).trans ?_
  exact slice2_axis1_apply o w h1 n j k hk

/-- On the extended reals, a sum over the last axis of an `[R, N, C]` array read at `(p, n)` is the sum over the lanes
    `j` of the entries `(p, n, j)`. -/
theorem lastAxis_sum_apply {R N C : ℕ} {φ : FTy} (src : FVec Ideal ⟨3, ![R, N, C]⟩ φ) (acc : BitVec φ.bits)
    (h : (⟨3, ![R, N, C]⟩ : Shape).Reduces [2] ⟨2, ![R, N]⟩) (hφ : FKind.Formats φ) (hacc : acc = FKind.add.neutral φ hφ)
    (p : Fin R) (n : Fin N) :
    multiReduction .add [2] ⟨2, ![R, N]⟩ src acc h hφ hacc (ix2 p n) = ∑ j : Fin C, src (ix3 p n j) := by
  rw [Ideal.multiReduction_add_single]
  refine Finset.sum_congr rfl fun j _ => ?_
  exact congrArg src (funext fun a => Fin.ext (by match a with | ⟨0, _⟩ => rfl | ⟨1, _⟩ => rfl | ⟨2, _⟩ => rfl))

end Cert.LibLaneChunks

end
-- ==== Proof.KernelLanes.lean ====
/-
  What one grid step computes, entry by entry.

  A grid step holds 32 batch rows `x` and all 256 weight rows of both weight matrices.  For the conjunction half it forms,
  for every batch row `p`, weight row `n` and lane `j`, the product over the four chunks `c` of the factors
  `1 − (1 − x(p, c·128 + j)) · wc(n, c·128 + j)`, takes its logarithm, and sums over the lanes; the score is
  `−1 / (−1 + sum)`.  The disjunction half does the same with `x` in place of `1 − x` and `wd` in place of `wc`, and its
  score is `1 −` that quotient.  The two halves are stored side by side: columns `0 … 255` and `256 … 511` of the
  32 × 512 block.  So the block is the result matrix of its 32 rows, with the sums of logarithms taken lane by lane.
-/
import proofs.«115098_j36301063585948_2_alg».proof.Proof.Gen.KernelIdeal.Frame
import proofs.«115098_j36301063585948_2_alg».proof.Proof.LogicScores
import proofs.«115098_j36301063585948_2_alg».proof.Proof.LibLaneChunks

noncomputable section

namespace Cert.KernelLanes

open Idealize.ShloMosaic Idealize.ShloMosaic.ValueIdx Cert.KernelIdeal Cert.KernelIdeal.Gen
open Cert.LogOfProducts Cert.LogicScores Cert.LibLaneChunks

/-- One chunk's factors: `c − a(p, k) · w(n, k)` at `(p, n, j)`, `k = o + j`, for the chunk of lanes starting at `o`. -/
theorem factor_apply (o : ℕ) (a : FVec Ideal S32x512 .f32) (w : FVec Ideal S256x512 .f32) (c : EReal)
    (h1 : S32x512.Slices ![0, o] S32x128) (h2 : S32x128.ShapeCasts S32x1x128) (h3 : S32x1x128.Broadcasts S32x256x128)
    (h4 : S256x512.Slices ![0, o] S256x128) (h5 : S256x128.ShapeCasts S1x256x128) (h6 : S1x256x128.Broadcasts S32x256x128)
    (p : Fin 32) (n : Fin 256) (j : Fin 128) (k : Fin 512) (hk : k.val = o + j.val) :
    subf (F := Ideal) (φ := .f32) (broadcast S32x256x128 c)
        (mulf (broadcastTo S32x256x128 (shapeCast S32x1x128 (extractStridedSlice S32x128 ![0, o] a h1) h2) h3)
          (broadcastTo S32x256x128 (shapeCast S1x256x128 (extractStridedSlice S256x128 ![0, o] w h4) h5) h6)) (ix3 p n j)
      = c - a (ix2 p k) * w (ix2 n k) := by
  refine (subf_apply _ _ _).trans (congrArg (c - ·) ((mulf_apply _ _ _).trans ?_))
  rw [rows_spread_apply o a h1 h2 h3 p n j k hk, cols_spread_apply o w h4 h5 h6 p n j k hk]

/-- The conjunction half's sum of logarithms at `(p, n)`, lane by lane. -/
theorem conSum_apply (v0 : Vec Ideal S32x512 .f32) (v1 : Vec Ideal S256x512 .f32) (p : Fin 32) (n : Fin 256) :
    k0_pay1 (F := Ideal) v0 v1 (ix2 p n) = laneSum (fun d => one - v0 (ix2 p d)) (fun d => v1 (ix2 n d)) := by
  unfold k0_pay1
  refine (lastAxis_sum_apply _ _ _ _ _ p n).trans (Finset.sum_congr rfl fun j _ => ?_)
  refine congrArg Ideal.log ?_
  refine (mulf_apply _ _ _).trans (congrArg₂ (· * ·) ((mulf_apply _ _ _).trans (congrArg₂ (· * ·)
    ((mulf_apply _ _ _).trans (congrArg₂ (· * ·) ?_ ?_)) ?_)) ?_)
  · exact factor_apply 0 _ v1 _ _ _ _ _ _ _ p n j (chunkAt 0 j) (by show 0 * 128 + j.val = 0 + j.val; omega)
  · exact factor_apply 128 _ v1 _ _ _ _ _ _ _ p n j (chunkAt 1 j) (by show 1 * 128 + j.val = 128 + j.val; omega)
  · exact factor_apply 256 _ v1 _ _ _ _ _ _ _ p n j (chunkAt 2 j) (by show 2 * 128 + j.val = 256 + j.val; omega)
  · exact factor_apply 384 _ v1 _ _ _ _ _ _ _ p n j (chunkAt 3 j) (by show 3 * 128 + j.val = 384 + j.val; omega)

/-- The conjunction score at `(p, n)` from the sum. -/
theorem conScore_apply (s : FVec Ideal S32x256 .f32) (c : EReal) (i : S32x256.Idx) :
    k0_pay2 (F := Ideal) s c i = Ideal.div negOne (c + s i) := rfl

/-- The disjunction half's score at `(p, n)`, its sum of logarithms lane by lane. -/
theorem disScore_apply (v0 : Vec Ideal S32x512 .f32) (v2 : Vec Ideal S256x512 .f32) (p : Fin 32) (n : Fin 256) :
    k0_pay3 (F := Ideal) v0 v2 (ix2 p n) = orScore (laneSum (fun d => v0 (ix2 p d)) (fun d => v2 (ix2 n d))) := by
  unfold k0_pay3
  refine (subf_apply _ _ _).trans (congrArg (one - ·) ((divf_apply _ _ _).trans (congrArg (Ideal.div negOne)
    ((addf_apply _ _ _).trans (congrArg (negOne + ·) ?_)))))
  refine (lastAxis_sum_apply _ _ _ _ _ p n).trans (Finset.sum_congr rfl fun j _ => ?_)
  refine congrArg Ideal.log ?_
  refine (mulf_apply _ _ _).trans (congrArg₂ (· * ·) ((mulf_apply _ _ _).trans (congrArg₂ (· * ·)
    ((mulf_apply _ _ _).trans (congrArg₂ (· * ·) ?_ ?_)) ?_)) ?_)
  · exact factor_apply 0 v0 v2 _ _ _ _ _ _ _ p n j (chunkAt 0 j) (by show 0 * 128 + j.val = 0 + j.val; omega)
  · exact factor_apply 128 v0 v2 _ _ _ _ _ _ _ p n j (chunkAt 1 j) (by show 1 * 128 + j.val = 128 + j.val; omega)
  · exact factor_apply 256 v0 v2 _ _ _ _ _ _ _ p n j (chunkAt 2 j) (by show 2 * 128 + j.val = 256 + j.val; omega)
  · exact factor_apply 384 v0 v2 _ _ _ _ _ _ _ p n j (chunkAt 3 j) (by show 3 * 128 + j.val = 384 + j.val; omega)

end Cert.KernelLanes

end
-- ==== Proof.KernelBlocks.lean ====
/-
  From the blocks to the whole result array.

  Grid step `t` works on batch rows `32 t … 32 t + 31`: its input block of `x` is those rows, both weight matrices are held
  whole, and its output block is rows `32 t … 32 t + 31` of the result.  A row of the result matrix depends on one batch
  row only, so what step `t` writes back is block `t` of the result matrix of the whole arrays (sums of logarithms taken
  lane by lane).  The 32 blocks cover the 1024 rows: row `r` is in the block of step `r / 32`.  Hence after the run the
  result array is that matrix.
-/
import proofs.«115098_j36301063585948_2_alg».proof.Proof.Gen.KernelIdeal.Value
import proofs.«115098_j36301063585948_2_alg».proof.Proof.KernelLanes

noncomputable section

namespace Cert.KernelBlocks

open Idealize.ShloMosaic Idealize.ShloMosaic.TcCoe Idealize.ShloMosaic.ValueIdx Idealize.SL.Sem
open Cert.KernelIdeal Cert.KernelIdeal.Gen Cert.KernelIdeal.Value
open Cert.LogOfProducts Cert.LogicScores Cert.KernelLanes
open Idealize.ShloMosaic.Pipeline (Dat)

/-! ## The result matrix at a left and at a right column, and its dependence on one batch row -/

section Rows

variable (S : (Fin 512 → EReal) → (Fin 512 → EReal) → EReal) {R : ℕ} (X : (⟨2, ![R, 512]⟩ : Shape).Idx → EReal)
  (Wc Wd : (⟨2, ![256, 512]⟩ : Shape).Idx → EReal)

/-- Column `k = q < 256` of row `p` is the conjunction score of batch row `p` and weight row `q`. -/
theorem scores_left (p : Fin R) (q : Fin 256) (k : Fin 512) (hk : k.val = q.val) :
    scoresBy S X Wc Wd (ix2 p k) = andScore (S (fun d => one - X (ix2 p d)) (fun d => Wc (ix2 q d))) := by
  have hq := q.isLt
  have e : lowCol k = q := Fin.ext (by show k.val % 256 = q.val; omega)
  show (if k.val < 256 then andScore (S (fun d => one - X (ix2 p d)) (fun d => Wc (ix2 (lowCol k) d)))
    else orScore (S (fun d => X (ix2 p d)) (fun d => Wd (ix2 (lowCol k) d)))) = _
  rw [if_pos (by omega), e]

/-- Column `k = 256 + q` of row `p` is the disjunction score of batch row `p` and weight row `q`. -/
theorem scores_right (p : Fin R) (q : Fin 256) (k : Fin 512) (hk : k.val = 256 + q.val) :
    scoresBy S X Wc Wd (ix2 p k) = orScore (S (fun d => X (ix2 p d)) (fun d => Wd (ix2 q d))) := by
  have hq := q.isLt
  have e : lowCol k = q := Fin.ext (by show k.val % 256 = q.val; omega)
  show (if k.val < 256 then andScore (S (fun d => one - X (ix2 p d)) (fun d => Wc (ix2 (lowCol k) d)))
    else orScore (S (fun d => X (ix2 p d)) (fun d => Wd (ix2 (lowCol k) d)))) = _
  rw [if_neg (by omega), e]

/-- An entry of the result matrix depends on the batch matrix through one row only. -/
theorem scores_congr_row {R' : ℕ} (X' : (⟨2, ![R', 512]⟩ : Shape).Idx → EReal) (i : (⟨2, ![R, 512]⟩ : Shape).Idx)
    (i' : (⟨2, ![R', 512]⟩ : Shape).Idx) (hrow : ∀ d : Fin 512, X (ix2 (i 0) d) = X' (ix2 (i' 0) d)) (hcol : i 1 = i' 1) :
    scoresBy S X Wc Wd i = scoresBy S X' Wc Wd i' := by
  show rowScores S (fun d => X (ix2 (i 0) d)) Wc Wd (i 1) = rowScores S (fun d => X' (ix2 (i' 0) d)) Wc Wd (i' 1)
  rw [funext hrow, hcol]

end Rows

/-! ## One grid step's block -/

theorem zero_offsets : (![0, 0] : Fin 2 → Nat) = fun _ => 0 := funext fun a => by fin_cases a <;> rfl

/-- The block a grid step leaves is the result matrix of its 32 batch rows, the sums taken lane by lane. -/
theorem block_eq (x0 : Vec Ideal S32x512 .f32) (x1 x2 : Vec Ideal S256x512 .f32) :
    out0_3 (F := Ideal) x0 x1 x2 = scoresBy laneSum (R := 32) x0 x1 x2 := by
  funext y
  unfold out0_3
  refine View.canon_apply_of_pieces (Val := Elt Ideal) (S := S32x512) (e := .f32) (scoresBy laneSum (R := 32) x0 x1 x2) _ (fun pc hpc x => ?_) y (cover0_3 _ _ y)
  rcases List.mem_cons.mp hpc with rfl | hpc
  · obtain ⟨p, q, rfl⟩ : ∃ (p : Fin 32) (q : Fin 256), x = ix2 p q := ⟨x 0, x 1, eq_ix2 x⟩
    have he : r0_3.emb (ix2 p q) = ix2 p (⟨256 + q.val, by have := q.isLt; omega⟩ : Fin 512) :=
      funext fun a => Fin.ext (by
        match a with
        | ⟨0, _⟩ => show 0 + 1 * p.val = p.val; omega
        | ⟨1, _⟩ => show 256 + 1 * q.val = 256 + q.val; omega)
    show k0_pay3 (View.ld x0 r0_0) (View.ld x2 r0_1) (ix2 p q) = scoresBy laneSum (R := 32) x0 x1 x2 (r0_3.emb (ix2 p q))
    rw [he, scores_right laneSum x0 x1 x2 p q _ rfl, View.ld_unit_zero zero_offsets, View.ld_unit_zero zero_offsets,
      disScore_apply]
  · obtain rfl := List.mem_singleton.mp hpc
    obtain ⟨p, q, rfl⟩ : ∃ (p : Fin 32) (q : Fin 256), x = ix2 p q := ⟨x 0, x 1, eq_ix2 x⟩
    have he : r0_2.emb (ix2 p q) = ix2 p (⟨q.val, by have := q.isLt; omega⟩ : Fin 512) :=
      funext fun a => Fin.ext (by
        match a with
        | ⟨0, _⟩ => show 0 + 1 * p.val = p.val; omega
        | ⟨1, _⟩ => show 0 + 1 * q.val = q.val; omega)
    show k0_pay2 (k0_pay1 (View.ld x0 r0_0) (View.ld x1 r0_1)) (Scalar.ofBits .f32 0xBF800000#32) (ix2 p q)
      = scoresBy laneSum (R := 32) x0 x1 x2 (r0_2.emb (ix2 p q))
    rw [he, scores_left laneSum x0 x1 x2 p q _ rfl, View.ld_unit_zero zero_offsets, View.ld_unit_zero zero_offsets,
      conScore_apply, conSum_apply]
    rfl

/-! ## The grid -/

variable (m : (ℓ : Loc nD τ sig) → Buf (Elt Ideal) ℓ) (ρ : Dev nD → PrngReg)

/-- The index maps over the 32 grid steps: the block of `x` moves with the output block along the rows, every other
    block coordinate is zero. -/
theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every one of the 32 row blocks of the result is some grid step's. -/
theorem idx_onto : ∀ q : Fin 32, ∃ t : Fin cfg0.N, win0_3.index t = ![q.val, 0] :=
  (by decide +kernel : ∀ q : Fin 32, ∃ t : Fin grid0.N, win0_3.index t = ![q.val, 0])

/-- The result matrix of the argument arrays, the sums of logarithms taken lane by lane. -/
abbrev result (c : Dev nD) : S1024x512.Idx → EReal :=
  scoresBy laneSum (R := 1024) (m ((c : Thread nD τ).loc main_arg0)) (m ((c : Thread nD τ).loc main_arg1))
    (m ((c : Thread nD τ).loc main_arg2))

/-- What grid step `t` writes back is block `t` of the result matrix. -/
theorem flushed_eq (c : Dev nD) (t : Fin cfg0.N) :
    (dats m 0 c).flushed 3 t = ((cfg0.win 3).blk t).view.read (Elt Ideal) (result m c) := by
  rw [flushed3, block_eq]
  obtain ⟨e0, e1, e2, e3, e4, e5, e6⟩ := idx_facts t
  funext y
  show scoresBy laneSum (R := 32) (iblk m c 0 t) (iblk m c 1 t) (iblk m c 2 t) y
    = result m c (((cfg0.win 3).blk t).view.emb y)
  have h1 : (iblk m c 1 t : S256x512.Idx → EReal) = m ((c : Thread nD τ).loc main_arg1) := funext fun z => by
    show V m c main_arg1 (((cfg0.win 1).blk t).view.emb z) = V m c main_arg1 z
    refine congrArg _ (funext fun a => Fin.ext ?_)
    match a with
    | ⟨0, _⟩ => show win0_1.index t (0 : Fin 2) * 256 + 1 * (z 0).val = (z 0).val; omega
    | ⟨1, _⟩ => show win0_1.index t (1 : Fin 2) * 512 + 1 * (z 1).val = (z 1).val; omega
  have h2 : (iblk m c 2 t : S256x512.Idx → EReal) = m ((c : Thread nD τ).loc main_arg2) := funext fun z => by
    show V m c main_arg2 (((cfg0.win 2).blk t).view.emb z) = V m c main_arg2 z
    refine congrArg _ (funext fun a => Fin.ext ?_)
    match a with
    | ⟨0, _⟩ => show win0_2.index t (0 : Fin 2) * 256 + 1 * (z 0).val = (z 0).val; omega
    | ⟨1, _⟩ => show win0_2.index t (1 : Fin 2) * 512 + 1 * (z 1).val = (z 1).val; omega
  rw [h1, h2]
  refine scores_congr_row laneSum _ _ _ _ y _ (fun d => ?_) (Fin.ext ?_)
  · show V m c main_arg0 (((cfg0.win 0).blk t).view.emb (ix2 (y 0) d))
      = V m c main_arg0 (ix2 ((((cfg0.win 3).blk t).view.emb y) 0) d)
    refine congrArg _ (funext fun a => Fin.ext ?_)
    match a with
    | ⟨0, _⟩ => show win0_0.index t (0 : Fin 2) * 32 + 1 * (y 0).val = win0_3.index t (0 : Fin 2) * 32 + 1 * (y 0).val; omega
    | ⟨1, _⟩ => show win0_0.index t (1 : Fin 2) * 512 + 1 * d.val = d.val; omega
  · show (y 1).val = win0_3.index t (1 : Fin 2) * 512 + 1 * (y 1).val; omega

/-- An index of the result array is in step `t`'s block iff each coordinate is in the block's range on its axis. -/
theorem mem_blk (t : Fin cfg0.N) (i : S1024x512.Idx) :
    i ∈ ((cfg0.win 3).blk t).view.set ↔ ∀ a : Fin 2, win0_3.index t a * S32x512.size a ≤ (i a).val
      ∧ (i a).val < win0_3.index t a * S32x512.size a + S32x512.size a := by
  show i ∈ ((View.whole main_v0).slice (win0_3.rect t)).set ↔ _
  rw [View.set_slice_whole, Rect.mem_set_unit]
  exact Iff.rfl

/-- Row `r` is in the block of step `r / 32`: the blocks cover the array. -/
theorem cover (i : S1024x512.Idx) :
    ∃ t : Fin cfg0.N, (cfg0.win 3).flush t = true ∧ i ∈ ((cfg0.win 3).blk t).view.set := by
  have hi0 : (i 0).val < 1024 := (i 0).isLt
  have hi1 : (i 1).val < 512 := (i 1).isLt
  obtain ⟨t, ht⟩ := idx_onto ⟨(i 0).val / 32, by omega⟩
  have q0 : win0_3.index t (0 : Fin 2) = (i 0).val / 32 := congrFun ht 0
  have q1 : win0_3.index t (1 : Fin 2) = 0 := congrFun ht 1
  refine ⟨t, flush0_3 t, (mem_blk t i).mpr fun a => ?_⟩
  match a with
  | ⟨0, _⟩ => show win0_3.index t (0 : Fin 2) * 32 ≤ (i 0).val ∧ (i 0).val < win0_3.index t (0 : Fin 2) * 32 + 32; omega
  | ⟨1, _⟩ => show win0_3.index t (1 : Fin 2) * 512 ≤ (i 1).val ∧ (i 1).val < win0_3.index t (1 : Fin 2) * 512 + 512; omega

/-- After the run the result array is the result matrix of the argument arrays. -/
theorem final (c : Dev nD) : (dats m 0 c).arrAt 3 cfg0.N = result m c :=
  (dats m 0 c).arrAt_eq_of_cover 3 (result m c) (fun t _ => flushed_eq m c t) cover

/-- The run: every execution ends with the result array at the result matrix (sums taken lane by lane) of the
    argument arrays, which end unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelBlocks

end
-- ==== Proof.ReferenceScores.lean ====
/-
  The reference's result is the score matrix taken with the plain sums of logarithms.

  The reference computes, on the rank-3 array indexed by `(b, d, n)`, the factors `1 − (1 − x (b, d)) · wc (n, d)` and
  `1 − x (b, d) · wd (n, d)`, takes logarithms, sums over the feature axis `d` from zero, and forms
  `−1 / (−1 + S)` for the conjunction half and `1 − (−1 / (−1 + S))` for the disjunction half; its result joins the two
  halves along the column axis.  Read entry by entry this is the specification's row of scores.
-/
import proofs.«115098_j36301063585948_2_alg».proof.Proof.RefRead
import proofs.«115098_j36301063585948_2_alg».proof.Proof.LogicScores
import Idealize.ShloMosaic.Lib.Pipeline.Value
import Idealize.ShloMosaic.Lib.ValueIdx
import Idealize.ShloMosaic.PureOps.Ideal.Laws

noncomputable section

namespace Cert.ReferenceScores

open Idealize.ShloMosaic Idealize.ShloMosaic.ValueIdx
open Cert.ReferenceIdeal Cert.ReferenceIdeal.Gen Cert.ReferenceIdeal.ReadP Cert.LogicScores

/-- One term of the conjunction half's sum: at `(b, d, n)` the logarithm of `1 − (1 − x (b, d)) · wc (n, d)`. -/
theorem and_term (x : FVec Ideal S1024x512 .f32) (wc : FVec Ideal S256x512 .f32) (b : Fin 1024) (n : Fin 256) (k : Fin 512) :
    val_main_v10 (F := Ideal) x wc (idx_main_v11 (ix2 b n) k) = Ideal.log (one - (one - x (ix2 b k)) * wc (ix2 n k)) := by
  rw [val_main_v10_apply, val_main_v9_apply, val_main_v8_apply, val_main_v7_apply, val_main_v5_apply, val_main_v2_apply,
    val_main_v1_apply, val_main_v0_apply, val_main_v6_apply, val_main_v4_apply, val_main_v3_apply]
  have e1 : idx_main_v2 (idx_main_v5 (idx_main_v11 (ix2 b n) k)) = ix2 b k :=
    funext fun a => Fin.ext (by match a with | ⟨0, _⟩ => rfl | ⟨1, _⟩ => rfl)
  have e2 : idx_main_v3 (idx_main_v4 (idx_main_v6 (idx_main_v11 (ix2 b n) k))) = ix2 n k :=
    funext fun a => Fin.ext (by match a with | ⟨0, _⟩ => rfl | ⟨1, _⟩ => rfl)
  rw [e1, e2]
  rfl

/-- The conjunction half at `(b, n)`: `−1 / (−1 + S)` with `S` the sum over the features of those logarithms. -/
theorem and_half (x : FVec Ideal S1024x512 .f32) (wc : FVec Ideal S256x512 .f32) (b : Fin 1024) (n : Fin 256) :
    val_main_v15 (F := Ideal) x wc (ix2 b n)
      = andScore (logSum (fun d => one - x (ix2 b d)) (fun d => wc (ix2 n d))) := by
  rw [val_main_v15_apply, val_main_v14_apply, val_main_v13_apply, val_main_v12_apply, val_main_v11_apply]
  simp only [and_term]
  rw [show val_main_cst_1 (F := Ideal) (Shape.Idx.first h_S_) = 0 from Ideal.ofBits_zero_f32, zero_add]
  rfl

/-- One term of the disjunction half's sum: at `(b, d, n)` the logarithm of `1 − x (b, d) · wd (n, d)`. -/
theorem or_term (x : FVec Ideal S1024x512 .f32) (wd : FVec Ideal S256x512 .f32) (b : Fin 1024) (n : Fin 256) (k : Fin 512) :
    val_main_v24 (F := Ideal) x wd (idx_main_v25 (ix2 b n) k) = Ideal.log (one - x (ix2 b k) * wd (ix2 n k)) := by
  rw [val_main_v24_apply, val_main_v23_apply, val_main_v22_apply, val_main_v21_apply, val_main_v19_apply, val_main_v16_apply,
    val_main_v20_apply, val_main_v18_apply, val_main_v17_apply]
  have e1 : idx_main_v16 (idx_main_v19 (idx_main_v25 (ix2 b n) k)) = ix2 b k :=
    funext fun a => Fin.ext (by match a with | ⟨0, _⟩ => rfl | ⟨1, _⟩ => rfl)
  have e2 : idx_main_v17 (idx_main_v18 (idx_main_v20 (idx_main_v25 (ix2 b n) k))) = ix2 n k :=
    funext fun a => Fin.ext (by match a with | ⟨0, _⟩ => rfl | ⟨1, _⟩ => rfl)
  rw [e1, e2]
  rfl

/-- The disjunction half at `(b, n)`: `1 − (−1 / (−1 + S))` with `S` the sum over the features of those logarithms. -/
theorem or_half (x : FVec Ideal S1024x512 .f32) (wd : FVec Ideal S256x512 .f32) (b : Fin 1024) (n : Fin 256) :
    val_main_v31 (F := Ideal) x wd (ix2 b n)
      = orScore (logSum (fun d => x (ix2 b d)) (fun d => wd (ix2 n d))) := by
  rw [val_main_v31_apply, val_main_v30_apply, val_main_v29_apply, val_main_v28_apply, val_main_v27_apply,
    val_main_v26_apply, val_main_v25_apply]
  simp only [or_term]
  rw [show val_main_cst_5 (F := Ideal) (Shape.Idx.first h_S_) = 0 from Ideal.ofBits_zero_f32, zero_add]
  rfl

/-- A column below 256 is its own weight row. -/
theorem lowCol_of_lt (k : Fin 512) (hk : k.val < 256) : lowCol k = ⟨k.val, hk⟩ := Fin.ext (Nat.mod_eq_of_lt hk)

/-- A column from 256 on belongs to the weight row 256 less. -/
theorem lowCol_of_ge (k : Fin 512) (hk : ¬ k.val < 256) : lowCol k = ⟨k.val - 256, by have := k.isLt; omega⟩ :=
  Fin.ext (by have := k.isLt; show k.val % 256 = k.val - 256; omega)

/-- The reference's result, as a function of its three arguments, is the score matrix taken with the plain sums. -/
theorem ref_eq (x : FVec Ideal Cert.ReferenceIdeal.S1024x512 .f32) (wc wd : FVec Ideal Cert.ReferenceIdeal.S256x512 .f32) :
    Cert.ReferenceIdeal.ReadP.val_main_v32 (F := Ideal) x wc wd = Cert.LogicScores.scoresBy Cert.LogicScores.logSum x wc wd := by
  funext i
  have h512 : (i 1).val < 512 := (i 1).isLt
  unfold val_main_v32 scoresBy rowScores
  by_cases hk : (i 1).val < 256
  · rw [if_pos hk, lowCol_of_lt _ hk,
      concatenate_pair_apply_left 1 _ _ concatenates_S1024x256_S1024x256_S1024x512_d1 i rfl
        (ix2 (n0 := 1024) (n1 := 256) (i 0) ⟨(i 1).val, hk⟩)
        (fun c => match c with | ⟨0, _⟩ => rfl | ⟨1, _⟩ => rfl)]
    exact and_half x wc (i 0) ⟨(i 1).val, hk⟩
  · rw [if_neg hk, lowCol_of_ge _ hk,
      concatenate_pair_apply_right 1 _ _ concatenates_S1024x256_S1024x256_S1024x512_d1 i rfl rfl
        (ix2 (n0 := 1024) (n1 := 256) (i 0) ⟨(i 1).val - 256, by omega⟩)
        (fun c => match c with | ⟨0, _⟩ => fun _ => rfl | ⟨1, _⟩ => fun hc => absurd rfl hc)
        (by show (i 1).val - 256 + 256 = (i 1).val; omega)]
    exact or_half x wd (i 0) ⟨(i 1).val - 256, by omega⟩

end Cert.ReferenceScores

end
-- ==== Proof.lean ====
/-
  Conjunction and disjunction scores: a fused kernel against its array reference.

  For a batch matrix `x` (1024 × 512) and two weight matrices `W_con`, `W_dis` (256 × 512 each) the reference computes
      con(b, n) = −1 / (−1 + Σ_d log (1 − (1 − x(b, d)) · W_con(n, d))),
      dis(b, n) = 1 − (−1 / (−1 + Σ_d log (1 − x(b, d) · W_dis(n, d)))),
  and returns the 1024 × 512 matrix whose row `b` is the 256 values `con(b, ·)` followed by the 256 values `dis(b, ·)`.
  The kernel walks the batch in 32 steps of 32 rows and, inside a step, takes each sum of 512 logarithms as a sum over
  128 lanes of the logarithm of the product of the lane's four factors (one from each chunk of 128 features).

  On the extended reals `log (a b) = log a + log b` holds for reals `a, b ≥ 0` (with `log 0 = −∞` on both sides) and fails
  for negative factors, where the logarithm has no value.  The claim is therefore stated on the domain of the
  reference's logarithms — every input finite and every factor under a logarithm at least zero — and there the two
  programs agree entry by entry: the kernel's result array is the result matrix with the sums taken lane by lane
  (the modules KernelLanes and KernelBlocks), the reference's is the result matrix with the plain sums
  (ReferenceScores, over the reference's run read back), and on the domain (LogDomain) the two matrices are equal
  (LogOfProducts, LogicScores).  The three frames are the generated ones; the idealized kernel is the kernel's own
  text read on the extended reals, so nothing is owed for that conjunct.
-/
import proofs.«115098_j36301063585948_2_alg».proof.Defs
import proofs.«115098_j36301063585948_2_alg».proof.Proof.Gen.Kernel
import proofs.«115098_j36301063585948_2_alg».proof.Proof.Gen.Kernel.Skeleton
import proofs.«115098_j36301063585948_2_alg».proof.Proof.Gen.Kernel.Launch
import proofs.«115098_j36301063585948_2_alg».proof.Proof.Gen.Kernel.Points
import proofs.«115098_j36301063585948_2_alg».proof.Proof.Gen.Kernel.Frame
import proofs.«115098_j36301063585948_2_alg».proof.Proof.Gen.KernelIdeal
import proofs.«115098_j36301063585948_2_alg».proof.Proof.Gen.KernelIdeal.Skeleton
import proofs.«115098_j36301063585948_2_alg».proof.Proof.Gen.KernelIdeal.Launch
import proofs.«115098_j36301063585948_2_alg».proof.Proof.Gen.KernelIdeal.Points
import proofs.«115098_j36301063585948_2_alg».proof.Proof.Gen.KernelIdeal.Frame
import proofs.«115098_j36301063585948_2_alg».proof.Proof.Gen.KernelIdeal.Value
import proofs.«115098_j36301063585948_2_alg».proof.Proof.Gen.ReferenceIdeal
import proofs.«115098_j36301063585948_2_alg».proof.Proof.Gen.Pre_finite_inputs
import proofs.«115098_j36301063585948_2_alg».proof.Proof.RefRun
import proofs.«115098_j36301063585948_2_alg».proof.Proof.RefRead
import proofs.«115098_j36301063585948_2_alg».proof.Proof.LogDomain
import proofs.«115098_j36301063585948_2_alg».proof.Proof.KernelBlocks
import proofs.«115098_j36301063585948_2_alg».proof.Proof.ReferenceScores
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run read back, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- On the domain of the logarithms both programs end with the result matrix of the argument arrays: the kernel's
    lane-by-lane sums of logarithms of products are the reference's sums of logarithms. -/
theorem algebraic : Cert.algebraic_KernelIdeal_ReferenceIdeal := by
  intro m ρ m' ρ' hpre hagree
  refine ⟨fun c => Cert.LogicScores.scoresBy Cert.LogicScores.logSum (R := 1024)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Cert.KernelBlocks.run m ρ)
    obtain ⟨hx, hc, hd, pc, pd⟩ := Cert.LogDomain.of_pre _ _ _ (hpre c)
    exact Cert.LogicScores.laneScores_eq_scores _ _ _ hx hc hd pc pd
  · refine (θ_run Cert.ReferenceIdeal.defs _ _).mono (fun _ h c => ⟨(h c).1.trans ?_, (h c).2⟩)
      (Cert.ReferenceIdeal.ValueP.run (F := Ideal) m' ρ')
    rw [(hagree c).1, (hagree c).2.1, (hagree c).2.2]
    exact (Cert.ReferenceIdeal.ReadP.val_main_v32_eq _ _ _).trans (Cert.ReferenceScores.ref_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
